-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S64x64 : Shape := ⟨2, ![64, 64]⟩
abbrev S64x4096 : Shape := ⟨2, ![64, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64x64 : S_.BroadcastsInDim S64x64 (![] : Fin 0 → Fin S64x64.rank)
  reducesTo_S64x64_S_d0_1 : S64x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S64x4096 .f32) (main_arg5 : FVec F S4096 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096x64 .f32) (main_arg3 : FVec F S64x64 .f32) (main_arg4 : FVec F S64x4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S64x64 : Shape := ⟨2, ![64, 64]⟩
abbrev S64x4096 : Shape := ⟨2, ![64, 4096]⟩
abbrev S4096 : Shape := ⟨1, ![4096]⟩
abbrev S512x64 : Shape := ⟨2, ![512, 64]⟩
abbrev S512x4096 : Shape := ⟨2, ![512, 4096]⟩
abbrev S8192x4096 : Shape := ⟨2, ![8192, 4096]⟩
abbrev S1x4096 : Shape := ⟨2, ![1, 4096]⟩
abbrev S256x4096 : Shape := ⟨2, ![256, 4096]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x64, .f32⟩
  | .hbm, ⟨3, _⟩ => ⟨S64x64, .f32⟩
  | .hbm, ⟨4, _⟩ => ⟨S64x4096, .f32⟩
  | .hbm, ⟨5, _⟩ => ⟨S4096, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S64x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S256x4096, .f32⟩
  | .local _ .vmem, ⟨9, _⟩ => ⟨S256x4096, .f32⟩
  | .local _ .vmem, ⟨10, _⟩ => ⟨S4096x4096, .bf16⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S512x64_S64x64_S512x64_1_0_0_1_n_n_wf : DotDims.WF S512x64 S64x64 S512x64 [1] [0] [0] [1] [] []
  dot_S512x64_S64x4096_S512x4096_1_0_0_1_n_n_wf : DotDims.WF S512x64 S64x4096 S512x4096 [1] [0] [0] [1] [] []
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .bf16 = 32 ∨ (Rect.block (s := S4096x4096) S512x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_arg2) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S64x64 : Shape := ⟨2, ![64, 64]⟩
abbrev S64x4096 : Shape := ⟨2, ![64, 4096]⟩
abbrev S4096 : Shape := ⟨1, ![4096]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x64, .f32⟩
  | .hbm, ⟨3, _⟩ => ⟨S64x64, .f32⟩
  | .hbm, ⟨4, _⟩ => ⟨S64x4096, .f32⟩
  | .hbm, ⟨5, _⟩ => ⟨S4096, .f32⟩
  | .hbm, ⟨6, _⟩ => ⟨S4096x64, .f32⟩
  | .hbm, ⟨7, _⟩ => ⟨S4096x4096, .f32⟩
  | .hbm, ⟨8, _⟩ => ⟨S4096x4096, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x64_S64x64_S4096x64_1_0_0_1_n_n_wf : DotDims.WF S4096x64 S64x64 S4096x64 [1] [0] [0] [1] [] []
  dot_S4096x64_S64x4096_S4096x4096_1_0_0_1_n_n_wf : DotDims.WF S4096x64 S64x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute, index by index, on the extended reals.

  With x of shape [4, 2048, 4096], W [4096, 4096], C [4096, 64], U [64, 64], R [64, 4096] and bias [4096]:
  the adapted weight at (o, d) is W(o, d) + ∑ₖ (∑ₗ C(o, l) · U(l, k)) · R(k, d), and the result at (b, s, o) is
  (∑_d x(b, s, d) · adapted(o, d)) + bias(o).  The two-dimensional form `rowsOut` is the same contraction for a matrix
  of rows, a matrix of adapted weights and a one-row bias: what one launch of the second kernel region computes.
-/
import Idealize.ShloMosaic.Lib.ValueIdx
import Idealize.ShloMosaic.PureOps.Ideal

noncomputable section

open scoped BigOperators

namespace Cert.Spec

open Idealize.ShloMosaic Idealize.ShloMosaic.ValueIdx

abbrev SX : Shape := ⟨3, ![4, 2048, 4096]⟩
abbrev SW : Shape := ⟨2, ![4096, 4096]⟩
abbrev SC : Shape := ⟨2, ![4096, 64]⟩
abbrev SU : Shape := ⟨2, ![64, 64]⟩
abbrev SR : Shape := ⟨2, ![64, 4096]⟩
abbrev SB : Shape := ⟨1, ![4096]⟩
abbrev SX2 : Shape := ⟨2, ![8192, 4096]⟩
abbrev SB2 : Shape := ⟨2, ![1, 4096]⟩

/-- The adapted weight at row `o` and column `d`: W(o, d) + ∑ₖ (∑ₗ C(o, l) · U(l, k)) · R(k, d). -/
def adaptedAt (W : SW.Idx → EReal) (C : SC.Idx → EReal) (U : SU.Idx → EReal) (R : SR.Idx → EReal)
    (o d : Fin 4096) : EReal :=
  W (ix2 o d) + ∑ k : Fin 64, (∑ l : Fin 64, C (ix2 o l) * U (ix2 l k)) * R (ix2 k d)

/-- The adapted weight as an array. -/
def adapted (W : SW.Idx → EReal) (C : SC.Idx → EReal) (U : SU.Idx → EReal) (R : SR.Idx → EReal) : SW.Idx → EReal :=
  fun j => adaptedAt W C U R (j 0) (j 1)

/-- Rows times the transposed weight, plus a one-row bias, at row `r` and column `o`. -/
def rowsOutAt (X : SX2.Idx → EReal) (A : SW.Idx → EReal) (b : SB2.Idx → EReal) (r : Fin 8192) (o : Fin 4096) : EReal :=
  (∑ d : Fin 4096, X (ix2 r d) * A (ix2 o d)) + b (ix2 (0 : Fin 1) o)

/-- The same as an array. -/
def rowsOut (X : SX2.Idx → EReal) (A : SW.Idx → EReal) (b : SB2.Idx → EReal) : SX2.Idx → EReal :=
  fun j => rowsOutAt X A b (j 0) (j 1)

/-- The result at (b, s, o): (∑_d x(b, s, d) · adapted(o, d)) + bias(o). -/
def resultAt (x : SX.Idx → EReal) (W : SW.Idx → EReal) (C : SC.Idx → EReal) (U : SU.Idx → EReal) (R : SR.Idx → EReal)
    (bias : SB.Idx → EReal) (b : Fin 4) (s : Fin 2048) (o : Fin 4096) : EReal :=
  (∑ d : Fin 4096, x (ix3 b s d) * adaptedAt W C U R o d) + bias (ix1 o)

/-- The result as an array. -/
def result (x : SX.Idx → EReal) (W : SW.Idx → EReal) (C : SC.Idx → EReal) (U : SU.Idx → EReal) (R : SR.Idx → EReal)
    (bias : SB.Idx → EReal) : SX.Idx → EReal :=
  fun i => resultAt x W C U R bias (i 0) (i 1) (i 2)

end Cert.Spec

end
-- ==== Proof.KRun.lean ====
/-
  The idealized kernel's run with every surviving buffer named.

  The program is two kernel regions among three reshapes.  Its run, segment by segment, threads one valuation of the
  device's buffers through: the launch memory, the first region's write-backs, the two reshapes, the second region's
  write-backs, the last reshape.  Every weakly fair execution terminates with each buffer that outlives the regions
  holding what the last valuation gives it; in particular the result buffer holds the last reshape of the second
  region's output array, and the six argument arrays hold what they were launched with.
-/
import proofs.«109219_j5196910428211_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the regions at the
    last valuation of the fold through the program's segments. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result buffer named: it ends holding the last valuation's contents of the result buffer, and
    each argument array what it was launched with. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (run_bufs m ρ)

end Cert.KernelIdeal.KRun

end
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.Reshape.lean ====
/-
  The two reshapes around the second region, read at an index.

  The rows of the [8192, 4096] matrix are the (b, s) pairs of the [4, 2048, 4096] array in row-major order, row
  2048 b + s, and the [1, 4096] bias row is the bias vector.  So the [8192, 4096] array of rows-times-transposed-weight
  plus bias, viewed as [4, 2048, 4096], holds at (b, s, o) the contraction of x(b, s, ·) with row o of the weight,
  plus bias(o).
-/
import proofs.«109219_j5196910428211_2_alg».proof.Proof.Spec
import proofs.«109219_j5196910428211_2_alg».proof.Proof.LibUnitRow
import Idealize.ShloMosaic.Lib.Pipeline.Value
import Idealize.ShloMosaic.Lib.ValueIdx

noncomputable section

open scoped BigOperators

namespace Cert.Spec

open Idealize.ShloMosaic Idealize.ShloMosaic.ValueIdx

/-- Entry (2048 b + s, d) of x viewed as a matrix of rows is x(b, s, d). -/
theorem rows_of_x (x : SX.Idx → EReal) (h : SX.ShapeCasts SX2) (b : Fin 4) (s : Fin 2048) (d : Fin 4096) :
    shapeCast SX2 x h (ix2 (⟨b.val * 2048 + s.val, by omega⟩ : Fin 8192) d) = x (ix3 b s d) :=
  shapeCast_apply x h _ (ix3 b s d) (by
    rw [Shape.rowMajor_val_three, Shape.rowMajor_val_two]
    show (b.val * 2048 + s.val) * 4096 + d.val = (b.val * 2048 + s.val) * 4096 + d.val
    rfl)

/-- The array of rows viewed as [4, 2048, 4096], at (b, s, o). -/
theorem view_rows (x : SX.Idx → EReal) (A : SW.Idx → EReal) (bias : SB.Idx → EReal)
    (h1 : SX.ShapeCasts SX2) (h2 : SB.ShapeCasts SB2) (h3 : SX2.ShapeCasts SX) (i : SX.Idx) :
    shapeCast SX (rowsOut (shapeCast SX2 x h1) A (shapeCast SB2 bias h2)) h3 i
      = (∑ d : Fin 4096, x (ix3 (i 0) (i 1) d) * A (ix2 (i 2) d)) + bias (ix1 (i 2)) := by
  obtain ⟨b, s, o, rfl⟩ : ∃ (b : Fin 4) (s : Fin 2048) (o : Fin 4096), i = ix3 b s o := ⟨i 0, i 1, i 2, eq_ix3 i⟩
  rw [shapeCast_apply _ h3 (ix3 b s o) (ix2 (⟨b.val * 2048 + s.val, by omega⟩ : Fin 8192) o) (by
    rw [Shape.rowMajor_val_three, Shape.rowMajor_val_two]
    show (b.val * 2048 + s.val) * 4096 + o.val = (b.val * 2048 + s.val) * 4096 + o.val
    rfl)]
  show rowsOutAt (shapeCast SX2 x h1) A (shapeCast SB2 bias h2) (⟨b.val * 2048 + s.val, by omega⟩ : Fin 8192) o = _
  unfold rowsOutAt
  rw [Cert.LibUnitRow.unitRow_apply bias h2 (0 : Fin 1) o]
  refine congrArg (· + bias (ix1 o)) (Finset.sum_congr rfl fun d _ => ?_)
  rw [rows_of_x x h1 b s d]

/-- With the adapted weight: the result. -/
theorem view_rows_adapted (x : SX.Idx → EReal) (W : SW.Idx → EReal) (C : SC.Idx → EReal) (U : SU.Idx → EReal)
    (R : SR.Idx → EReal) (bias : SB.Idx → EReal)
    (h1 : SX.ShapeCasts SX2) (h2 : SB.ShapeCasts SB2) (h3 : SX2.ShapeCasts SX) :
    shapeCast SX (rowsOut (shapeCast SX2 x h1) (adapted W C U R) (shapeCast SB2 bias h2)) h3 = result x W C U R bias :=
  funext fun i => view_rows x (adapted W C U R) bias h1 h2 h3 i

end Cert.Spec

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.Pay.lean ====
/-
  What each kernel body stores, read at an index, on the extended reals.

  The first body stores, at (p, q) of its block, the weight block's entry plus the double contraction of the C block,
  U and R; the second stores the contraction of a row of its x block with a row of the weight array, plus the bias
  row's entry.  Changes of float format are the identity on the extended reals and a cast to the same shape is the
  identity, so nothing else is left of the bodies' operations.
-/
import proofs.«109219_j5196910428211_2_alg».proof.Proof.Gen.KernelIdeal.Skeleton
import proofs.«109219_j5196910428211_2_alg».proof.Proof.LibRowOps
import proofs.«109219_j5196910428211_2_alg».proof.Proof.LibMatmulNT
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.KernelIdeal.Facts₀
open Idealize.ShloMosaic Idealize.ShloMosaic.ValueIdx

variable [Cert.KernelIdeal.Facts]

/-! ## Which operand coordinate is the row, the column and the contracted one, for the three products -/

theorem cu_l0 (j : S512x64.Idx) (q : dot_S512x64_S64x64_S512x64_1_0_0_1_n_n.contr.Idx) :
    (dot_S512x64_S64x64_S512x64_1_0_0_1_n_n.lhsIdx j q 0).val = (j 0).val := by
  unfold DotDims.lhsIdx
  rw [dif_neg (show ¬(0 : Fin S512x64.rank) ∈ dot_S512x64_S64x64_S512x64_1_0_0_1_n_n.lhsBatch by decide),
    dif_pos (show (0 : Fin S512x64.rank) ∈ dot_S512x64_S64x64_S512x64_1_0_0_1_n_n.lhsNonContracting by decide)]
  rfl
theorem cu_l1 (j : S512x64.Idx) (q : dot_S512x64_S64x64_S512x64_1_0_0_1_n_n.contr.Idx) :
    (dot_S512x64_S64x64_S512x64_1_0_0_1_n_n.lhsIdx j q 1).val = (q ⟨0, by decide⟩).val :=
  dot_S512x64_S64x64_S512x64_1_0_0_1_n_n.lhsIdx_val_of_single rfl j q
theorem cu_r0 (j : S512x64.Idx) (q : dot_S512x64_S64x64_S512x64_1_0_0_1_n_n.contr.Idx) :
    (dot_S512x64_S64x64_S512x64_1_0_0_1_n_n.rhsIdx j q 0).val = (q ⟨0, by decide⟩).val :=
  dot_S512x64_S64x64_S512x64_1_0_0_1_n_n.rhsIdx_val_of_single rfl j q
theorem cu_r1 (j : S512x64.Idx) (q : dot_S512x64_S64x64_S512x64_1_0_0_1_n_n.contr.Idx) :
    (dot_S512x64_S64x64_S512x64_1_0_0_1_n_n.rhsIdx j q 1).val = (j 1).val := by
  unfold DotDims.rhsIdx
  rw [dif_neg (show ¬(1 : Fin S64x64.rank) ∈ dot_S512x64_S64x64_S512x64_1_0_0_1_n_n.rhsBatch by decide),
    dif_pos (show (1 : Fin S64x64.rank) ∈ dot_S512x64_S64x64_S512x64_1_0_0_1_n_n.rhsNonContracting by decide)]
  rfl

theorem cur_l0 (j : S512x4096.Idx) (q : dot_S512x64_S64x4096_S512x4096_1_0_0_1_n_n.contr.Idx) :
    (dot_S512x64_S64x4096_S512x4096_1_0_0_1_n_n.lhsIdx j q 0).val = (j 0).val := by
  unfold DotDims.lhsIdx
  rw [dif_neg (show ¬(0 : Fin S512x64.rank) ∈ dot_S512x64_S64x4096_S512x4096_1_0_0_1_n_n.lhsBatch by decide),
    dif_pos (show (0 : Fin S512x64.rank) ∈ dot_S512x64_S64x4096_S512x4096_1_0_0_1_n_n.lhsNonContracting by decide)]
  rfl
theorem cur_l1 (j : S512x4096.Idx) (q : dot_S512x64_S64x4096_S512x4096_1_0_0_1_n_n.contr.Idx) :
    (dot_S512x64_S64x4096_S512x4096_1_0_0_1_n_n.lhsIdx j q 1).val = (q ⟨0, by decide⟩).val :=
  dot_S512x64_S64x4096_S512x4096_1_0_0_1_n_n.lhsIdx_val_of_single rfl j q
theorem cur_r0 (j : S512x4096.Idx) (q : dot_S512x64_S64x4096_S512x4096_1_0_0_1_n_n.contr.Idx) :
    (dot_S512x64_S64x4096_S512x4096_1_0_0_1_n_n.rhsIdx j q 0).val = (q ⟨0, by decide⟩).val :=
  dot_S512x64_S64x4096_S512x4096_1_0_0_1_n_n.rhsIdx_val_of_single rfl j q
theorem cur_r1 (j : S512x4096.Idx) (q : dot_S512x64_S64x4096_S512x4096_1_0_0_1_n_n.contr.Idx) :
    (dot_S512x64_S64x4096_S512x4096_1_0_0_1_n_n.rhsIdx j q 1).val = (j 1).val := by
  unfold DotDims.rhsIdx
  rw [dif_neg (show ¬(1 : Fin S64x4096.rank) ∈ dot_S512x64_S64x4096_S512x4096_1_0_0_1_n_n.rhsBatch by decide),
    dif_pos (show (1 : Fin S64x4096.rank) ∈ dot_S512x64_S64x4096_S512x4096_1_0_0_1_n_n.rhsNonContracting by decide)]
  rfl

theorem xw_l0 (j : S256x4096.Idx) (q : dot_S256x4096_S4096x4096_S256x4096_1_1_0_0_n_n.contr.Idx) :
    (dot_S256x4096_S4096x4096_S256x4096_1_1_0_0_n_n.lhsIdx j q 0).val = (j 0).val := by
  unfold DotDims.lhsIdx
  rw [dif_neg (show ¬(0 : Fin S256x4096.rank) ∈ dot_S256x4096_S4096x4096_S256x4096_1_1_0_0_n_n.lhsBatch by decide),
    dif_pos (show (0 : Fin S256x4096.rank) ∈ dot_S256x4096_S4096x4096_S256x4096_1_1_0_0_n_n.lhsNonContracting by decide)]
  rfl
theorem xw_l1 (j : S256x4096.Idx) (q : dot_S256x4096_S4096x4096_S256x4096_1_1_0_0_n_n.contr.Idx) :
    (dot_S256x4096_S4096x4096_S256x4096_1_1_0_0_n_n.lhsIdx j q 1).val = (q ⟨0, by decide⟩).val :=
  dot_S256x4096_S4096x4096_S256x4096_1_1_0_0_n_n.lhsIdx_val_of_single rfl j q
theorem xw_r0 (j : S256x4096.Idx) (q : dot_S256x4096_S4096x4096_S256x4096_1_1_0_0_n_n.contr.Idx) :
    (dot_S256x4096_S4096x4096_S256x4096_1_1_0_0_n_n.rhsIdx j q 0).val = (j 1).val := by
  unfold DotDims.rhsIdx
  rw [dif_neg (show ¬(0 : Fin S4096x4096.rank) ∈ dot_S256x4096_S4096x4096_S256x4096_1_1_0_0_n_n.rhsBatch by decide),
    dif_pos (show (0 : Fin S4096x4096.rank) ∈ dot_S256x4096_S4096x4096_S256x4096_1_1_0_0_n_n.rhsNonContracting by decide)]
  rfl
theorem xw_r1 (j : S256x4096.Idx) (q : dot_S256x4096_S4096x4096_S256x4096_1_1_0_0_n_n.contr.Idx) :
    (dot_S256x4096_S4096x4096_S256x4096_1_1_0_0_n_n.rhsIdx j q 1).val = (q ⟨0, by decide⟩).val :=
  dot_S256x4096_S4096x4096_S256x4096_1_1_0_0_n_n.rhsIdx_val_of_single rfl j q

/-! ## The two payloads at an index -/

/-- The first body's store at (p, q): the weight block's entry plus ∑ₖ (∑ₗ C(p, l) · U(l, k)) · R(k, q). -/
theorem adapter_apply (c : Vec Ideal S512x64 .f32) (u : Vec Ideal S64x64 .f32) (r : Vec Ideal S64x4096 .f32)
    (w : Vec Ideal S512x4096 .f32) (p : Fin 512) (q : Fin 4096) :
    k0_pay1 c u r w (ix2 p q) = w (ix2 p q) + ∑ k : Fin 64, (∑ l : Fin 64, c (ix2 p l) * u (ix2 l k)) * r (ix2 k q) := by
  unfold k0_pay1
  refine congrArg (w (ix2 p q) + ·) ?_
  refine (Cert.LibRowOps.matmul_zero_apply dot_S512x64_S64x4096_S512x4096_1_0_0_1_n_n none _ r rfl rfl
    cur_l0 cur_l1 cur_r0 cur_r1 p q).trans ?_
  refine Finset.sum_congr rfl fun k _ => ?_
  refine congrArg (· * r (ix2 k q)) ?_
  exact Cert.LibRowOps.matmul_zero_apply dot_S512x64_S64x64_S512x64_1_0_0_1_n_n none c u rfl rfl
    cu_l0 cu_l1 cu_r0 cu_r1 p k

/-- The second body's store at (p, q): ∑_d x(p, d) · A(q, d), plus the bias row's entry q. -/
theorem rows_apply (x : Vec Ideal S256x4096 .f32) (a : Vec Ideal S4096x4096 .bf16) (b : Vec Ideal S1x4096 .f32)
    (p : Fin 256) (q : Fin 4096) :
    k1_pay1 x a b (ix2 p q) = (∑ d : Fin 4096, x (ix2 p d) * a (ix2 q d)) + b (ix2 (0 : Fin 1) q) := by
  unfold k1_pay1
  rw [shapeCast_self, shapeCast_self, shapeCast_self]
  refine (addf_apply _ _ (ix2 p q)).trans ?_
  refine congrArg₂ (· + ·) ?_ ?_
  · exact Cert.LibMatmulNT.matmul_nt_zero_apply dot_S256x4096_S4096x4096_S256x4096_1_1_0_0_n_n none
      (truncf .bf16 x Facts₀.bitsLt_bf16_f32) a rfl rfl xw_l0 xw_l1 xw_r0 xw_r1 p q
  · exact broadcastTo_apply b Facts₀.broadcasts_S1x4096_S256x4096 (ix2 p q) (ix2 (0 : Fin 1) q) (fun e => by
      match e with
      | ⟨0, _⟩ => rfl
      | ⟨1, _⟩ => rfl)

end Cert.KernelIdeal.Pay

end
-- ==== Proof.Adapter.lean ====
/-
  The first region's output array: the adapted weight.

  The region has 8 grid points.  Point t reads rows [512 t, 512 t + 512) of C and of W, all of U and of R, and writes
  back rows [512 t, 512 t + 512) of the output.  What it writes is that block of ONE array, the adapted weight
  W(o, d) + ∑ₖ (∑ₗ C(o, l) · U(l, k)) · R(k, d), and the 8 blocks cover the rows 0 … 4095, so the output array ends
  holding the adapted weight of the arrays the region was entered with.
-/
import proofs.«109219_j5196910428211_2_alg».proof.Proof.Gen.KernelIdeal.Frame
import proofs.«109219_j5196910428211_2_alg».proof.Proof.Spec
import proofs.«109219_j5196910428211_2_alg».proof.Proof.Pay
import Idealize.ShloMosaic.Lib.Pipeline.Value

set_option maxRecDepth 16384

noncomputable section

open scoped BigOperators

namespace Cert.KernelIdeal.Adapter

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The block indices at a grid point: the row blocks move with the point, everything else stays at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A block of rows [512 n, 512 n + 512) of C and W with all of U and R gives that block of rows of the adapted
    weight. -/
theorem block_eq (W : Spec.SW.Idx → EReal) (C : Spec.SC.Idx → EReal) (U : Spec.SU.Idx → EReal) (R : Spec.SR.Idx → EReal)
    (cb : Vec Ideal S512x64 .f32) (ub : Vec Ideal S64x64 .f32) (rb : Vec Ideal S64x4096 .f32) (wb : Vec Ideal S512x4096 .f32)
    (n : ℕ) (hn : n < 8)
    (hc : ∀ (p : Fin 512) (l : Fin 64), cb (ix2 p l) = C (ix2 (⟨n * 512 + p.val, by omega⟩ : Fin 4096) l))
    (hu : ∀ (l k : Fin 64), ub (ix2 l k) = U (ix2 l k))
    (hr : ∀ (k : Fin 64) (q : Fin 4096), rb (ix2 k q) = R (ix2 k q))
    (hw : ∀ (p : Fin 512) (q : Fin 4096), wb (ix2 p q) = W (ix2 (⟨n * 512 + p.val, by omega⟩ : Fin 4096) q))
    (p : Fin 512) (q : Fin 4096) :
    k0_pay1 cb ub rb wb (ix2 p q) = Spec.adaptedAt W C U R (⟨n * 512 + p.val, by omega⟩ : Fin 4096) q := by
  rw [Pay.adapter_apply cb ub rb wb p q]
  unfold Spec.adaptedAt
  rw [hw p q]
  refine congrArg (W _ + ·) (Finset.sum_congr rfl fun k _ => ?_)
  rw [hr k q]
  refine congrArg (· * R _) (Finset.sum_congr rfl fun l _ => ?_)
  rw [hc p l, hu l k]

/-- What point `t` writes back is block `t` of the adapted weight of the arrays the region was entered with. -/
theorem flushed_eq (c : Dev nD) (t : Fin cfg0.N) :
    (dat0 V c).flushed 4 t = ((cfg0.win 4).blk t).view.read (Elt Ideal)
      (Spec.adapted (V c main_arg1) (V c main_arg2) (V c main_arg3) (V c main_arg4)) := by
  show (cfg0.win 4).cut (grid0.coords t) ((dat0 V c).after 4 t) = _
  rw [after0_4]
  unfold out0_4
  rw [View.canon_unit_zero zeros]
  simp only [View.ld_unit_zero (S := S512x64) zeros, View.ld_unit_zero (S := S64x64) zeros,
    View.ld_unit_zero (S := S64x4096) zeros, View.ld_unit_zero (S := S512x4096) zeros]
  obtain ⟨e00, e01, e10, e11, e20, e21, e30, e31, e40, e41⟩ := idx_facts t
  have ht : t.val < 8 := by have h := t.isLt; have e : cfg0.N = 8 := N_0; omega
  funext j
  obtain ⟨p, q, rfl⟩ : ∃ (p : Fin 512) (q : Fin 4096), j = ix2 p q := ⟨j 0, j 1, eq_ix2 j⟩
  have h4 : ((cfg0.win 4).blk t).view.emb (ix2 p q) = ix2 (⟨t.val * 512 + p.val, by omega⟩ : Fin 4096) q := by
    funext a; apply Fin.ext
    match a with
    | ⟨0, _⟩ => show win0_4.index t (0 : Fin 2) * 512 + 1 * p.val = t.val * 512 + p.val; omega
    | ⟨1, _⟩ => show win0_4.index t (1 : Fin 2) * 4096 + 1 * q.val = q.val; omega
  show k0_pay1 (iblk0 V c 0 t) (iblk0 V c 1 t) (iblk0 V c 2 t) (iblk0 V c 3 t) (ix2 p q)
    = Spec.adapted (V c main_arg1) (V c main_arg2) (V c main_arg3) (V c main_arg4) (((cfg0.win 4).blk t).view.emb (ix2 p q))
  rw [h4]
  refine block_eq (V c main_arg1) (V c main_arg2) (V c main_arg3) (V c main_arg4)
    (iblk0 V c 0 t) (iblk0 V c 1 t) (iblk0 V c 2 t) (iblk0 V c 3 t) t.val ht ?_ ?_ ?_ ?_ p q
  · intro p l
    show V c main_arg2 (((cfg0.win 0).blk t).view.emb (ix2 p l)) = _
    refine congrArg (V c main_arg2) (funext fun a => Fin.ext ?_)
    match a with
    | ⟨0, _⟩ => show win0_0.index t (0 : Fin 2) * 512 + 1 * p.val = t.val * 512 + p.val; omega
    | ⟨1, _⟩ => show win0_0.index t (1 : Fin 2) * 64 + 1 * l.val = l.val; omega
  · intro l k
    show V c main_arg3 (((cfg0.win 1).blk t).view.emb (ix2 l k)) = _
    refine congrArg (V c main_arg3) (funext fun a => Fin.ext ?_)
    match a with
    | ⟨0, _⟩ => show win0_1.index t (0 : Fin 2) * 64 + 1 * l.val = l.val; omega
    | ⟨1, _⟩ => show win0_1.index t (1 : Fin 2) * 64 + 1 * k.val = k.val; omega
  · intro k q
    show V c main_arg4 (((cfg0.win 2).blk t).view.emb (ix2 k q)) = _
    refine congrArg (V c main_arg4) (funext fun a => Fin.ext ?_)
    match a with
    | ⟨0, _⟩ => show win0_2.index t (0 : Fin 2) * 64 + 1 * k.val = k.val; omega
    | ⟨1, _⟩ => show win0_2.index t (1 : Fin 2) * 4096 + 1 * q.val = q.val; omega
  · intro p q
    show V c main_arg1 (((cfg0.win 3).blk t).view.emb (ix2 p q)) = _
    refine congrArg (V c main_arg1) (funext fun a => Fin.ext ?_)
    match a with
    | ⟨0, _⟩ => show win0_3.index t (0 : Fin 2) * 512 + 1 * p.val = t.val * 512 + p.val; omega
    | ⟨1, _⟩ => show win0_3.index t (1 : Fin 2) * 4096 + 1 * q.val = q.val; omega

/-- An index of the output array is in point `t`'s block iff each coordinate is in the block's range on its axis. -/
theorem mem_blk (t : Fin cfg0.N) (i : S4096x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v0).slice (win0_4.rect t)).set ↔ _
  rw [View.set_slice_whole, Rect.mem_set_unit]
  exact Iff.rfl

/-- Row r of the output is in the block of point r / 512. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 8 := N_0
  refine ⟨⟨(i 0).val / 512, by rw [hN]; omega⟩, flush0_4 _, ?_⟩
  rw [mem_blk]
  obtain ⟨e00, e01, e10, e11, e20, e21, e30, e31, e40, e41⟩ := idx_facts ⟨(i 0).val / 512, by rw [hN]; omega⟩
  intro a
  match a with
  | ⟨0, _⟩ =>
    show win0_4.index ⟨(i 0).val / 512, _⟩ (0 : Fin 2) * 512 ≤ (i 0).val
      ∧ (i 0).val < win0_4.index ⟨(i 0).val / 512, _⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, _⟩ (1 : Fin 2) * 4096 ≤ (i 1).val
      ∧ (i 1).val < win0_4.index ⟨(i 0).val / 512, _⟩ (1 : Fin 2) * 4096 + 4096
    rw [e41]; omega

/-- The output array after the region: the adapted weight of the arrays the region was entered with. -/
theorem final (c : Dev nD) : (dat0 V c).arrAt 4 cfg0.N
    = Spec.adapted (V c main_arg1) (V c main_arg2) (V c main_arg3) (V c main_arg4) :=
  (dat0 V c).arrAt_eq_of_cover 4 _ (fun t _ => flushed_eq V c t) cover

end Cert.KernelIdeal.Adapter

end
-- ==== Proof.Rows.lean ====
/-
  The second region's output array: rows times the transposed weight, plus the bias row.

  The region has 32 grid points.  Point t reads rows [256 t, 256 t + 256) of the matrix of rows, the whole weight
  array and the whole bias row, and writes back rows [256 t, 256 t + 256) of the output.  What it writes is that block
  of ONE array, (∑_d X(r, d) · A(o, d)) + B(0, o), and the 32 blocks cover the rows 0 … 8191, so the output array ends
  holding that array of the arrays the region was entered with.
-/
import proofs.«109219_j5196910428211_2_alg».proof.Proof.Gen.KernelIdeal.Frame
import proofs.«109219_j5196910428211_2_alg».proof.Proof.Spec
import proofs.«109219_j5196910428211_2_alg».proof.Proof.Pay
import Idealize.ShloMosaic.Lib.Pipeline.Value

set_option maxRecDepth 16384

noncomputable section

open scoped BigOperators

namespace Cert.KernelIdeal.Rows

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The block indices at a grid point: the row blocks move with the point, everything else stays at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block of rows [256 n, 256 n + 256) of X with all of A and B gives that block of rows of the output. -/
theorem block_eq (X : Spec.SX2.Idx → EReal) (A : Spec.SW.Idx → EReal) (B : Spec.SB2.Idx → EReal)
    (xb : Vec Ideal S256x4096 .f32) (ab : Vec Ideal S4096x4096 .bf16) (bb : Vec Ideal S1x4096 .f32)
    (n : ℕ) (hn : n < 32)
    (hx : ∀ (p : Fin 256) (d : Fin 4096), xb (ix2 p d) = X (ix2 (⟨n * 256 + p.val, by omega⟩ : Fin 8192) d))
    (ha : ∀ (o d : Fin 4096), ab (ix2 o d) = A (ix2 o d))
    (hb : ∀ (q : Fin 4096), bb (ix2 (0 : Fin 1) q) = B (ix2 (0 : Fin 1) q))
    (p : Fin 256) (q : Fin 4096) :
    k1_pay1 xb ab bb (ix2 p q) = Spec.rowsOutAt X A B (⟨n * 256 + p.val, by omega⟩ : Fin 8192) q := by
  rw [Pay.rows_apply xb ab bb p q]
  unfold Spec.rowsOutAt
  rw [hb q]
  refine congrArg (· + B _) (Finset.sum_congr rfl fun d _ => ?_)
  rw [hx p d, ha q d]

/-- What point `t` writes back is block `t` of the output of the arrays the region was entered with. -/
theorem flushed_eq (c : Dev nD) (t : Fin cfg1.N) :
    (dat1 V c).flushed 3 t = ((cfg1.win 3).blk t).view.read (Elt Ideal)
      (Spec.rowsOut (V c main_v1) (V c main_v0) (V c main_v2)) := by
  show (cfg1.win 3).cut (grid1.coords t) ((dat1 V c).after 3 t) = _
  rw [after1_3]
  unfold out1_3
  rw [View.canon_unit_zero zeros]
  simp only [View.ld_unit_zero (S := S256x4096) zeros, View.ld_unit_zero (S := S4096x4096) zeros,
    View.ld_unit_zero (S := S1x4096) zeros]
  obtain ⟨e00, e01, e10, e11, e20, e21, e30, e31⟩ := idx_facts t
  have ht : t.val < 32 := by have h := t.isLt; have e : cfg1.N = 32 := N_1; omega
  funext j
  obtain ⟨p, q, rfl⟩ : ∃ (p : Fin 256) (q : Fin 4096), j = ix2 p q := ⟨j 0, j 1, eq_ix2 j⟩
  have h3 : ((cfg1.win 3).blk t).view.emb (ix2 p q) = ix2 (⟨t.val * 256 + p.val, by omega⟩ : Fin 8192) q := by
    funext a; apply Fin.ext
    match a with
    | ⟨0, _⟩ => show win1_3.index t (0 : Fin 2) * 256 + 1 * p.val = t.val * 256 + p.val; omega
    | ⟨1, _⟩ => show win1_3.index t (1 : Fin 2) * 4096 + 1 * q.val = q.val; omega
  show k1_pay1 (iblk1 V c 0 t) (iblk1 V c 1 t) (iblk1 V c 2 t) (ix2 p q)
    = Spec.rowsOut (V c main_v1) (V c main_v0) (V c main_v2) (((cfg1.win 3).blk t).view.emb (ix2 p q))
  rw [h3]
  refine block_eq (V c main_v1) (V c main_v0) (V c main_v2)
    (iblk1 V c 0 t) (iblk1 V c 1 t) (iblk1 V c 2 t) t.val ht ?_ ?_ ?_ p q
  · intro p d
    show V c main_v1 (((cfg1.win 0).blk t).view.emb (ix2 p d)) = _
    refine congrArg (V c main_v1) (funext fun a => Fin.ext ?_)
    match a with
    | ⟨0, _⟩ => show win1_0.index t (0 : Fin 2) * 256 + 1 * p.val = t.val * 256 + p.val; omega
    | ⟨1, _⟩ => show win1_0.index t (1 : Fin 2) * 4096 + 1 * d.val = d.val; omega
  · intro o d
    show V c main_v0 (((cfg1.win 1).blk t).view.emb (ix2 o d)) = _
    refine congrArg (V c main_v0) (funext fun a => Fin.ext ?_)
    match a with
    | ⟨0, _⟩ => show win1_1.index t (0 : Fin 2) * 4096 + 1 * o.val = o.val; omega
    | ⟨1, _⟩ => show win1_1.index t (1 : Fin 2) * 4096 + 1 * d.val = d.val; omega
  · intro q
    show V c main_v2 (((cfg1.win 2).blk t).view.emb (ix2 (0 : Fin 1) q)) = _
    refine congrArg (V c main_v2) (funext fun a => Fin.ext ?_)
    match a with
    | ⟨0, _⟩ => show win1_2.index t (0 : Fin 2) * 1 + 1 * 0 = 0; omega
    | ⟨1, _⟩ => show win1_2.index t (1 : Fin 2) * 4096 + 1 * q.val = q.val; omega

/-- An index of the output array is in point `t`'s block iff each coordinate is in the block's range on its axis. -/
theorem mem_blk (t : Fin cfg1.N) (i : S8192x4096.Idx) :
    i ∈ ((cfg1.win 3).blk t).view.set ↔ ∀ a : Fin 2, win1_3.index t a * S256x4096.size a ≤ (i a).val
      ∧ (i a).val < win1_3.index t a * S256x4096.size a + S256x4096.size a := by
  show i ∈ ((View.whole main_v3).slice (win1_3.rect t)).set ↔ _
  rw [View.set_slice_whole, Rect.mem_set_unit]
  exact Iff.rfl

/-- Row r of the output is in the block of point r / 256. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 32 := N_1
  refine ⟨⟨(i 0).val / 256, by rw [hN]; omega⟩, flush1_3 _, ?_⟩
  rw [mem_blk]
  obtain ⟨e00, e01, e10, e11, e20, e21, e30, e31⟩ := idx_facts ⟨(i 0).val / 256, by rw [hN]; omega⟩
  intro a
  match a with
  | ⟨0, _⟩ =>
    show win1_3.index ⟨(i 0).val / 256, _⟩ (0 : Fin 2) * 256 ≤ (i 0).val
      ∧ (i 0).val < win1_3.index ⟨(i 0).val / 256, _⟩ (0 : Fin 2) * 256 + 256
    rw [e30]; show (i 0).val / 256 * 256 ≤ (i 0).val ∧ (i 0).val < (i 0).val / 256 * 256 + 256; omega
  | ⟨1, _⟩ =>
    show win1_3.index ⟨(i 0).val / 256, _⟩ (1 : Fin 2) * 4096 ≤ (i 1).val
      ∧ (i 1).val < win1_3.index ⟨(i 0).val / 256, _⟩ (1 : Fin 2) * 4096 + 4096
    rw [e31]; omega

/-- The output array after the region: rows times the transposed weight plus the bias row, of the arrays the region
    was entered with. -/
theorem final (c : Dev nD) : (dat1 V c).arrAt 3 cfg1.N
    = Spec.rowsOut (V c main_v1) (V c main_v0) (V c main_v2) :=
  (dat1 V c).arrAt_eq_of_cover 3 _ (fun t _ => flushed_eq V c t) cover

end Cert.KernelIdeal.Rows

end
-- ==== Proof.Fold.lean ====
/-
  The kernel's result as one function of its arguments.

  Following the valuation of the device's buffers through the program's segments: the first region leaves the adapted
  weight of W, C, U, R in its output array; the two reshapes view x as a matrix of 8192 rows and the bias as a one-row
  matrix; the second region leaves rows-times-transposed-weight plus the bias row; the last reshape views that array
  as [4, 2048, 4096].  Read at an index, the composition is the specified result.
-/
import proofs.«109219_j5196910428211_2_alg».proof.Proof.Gen.KernelIdeal.Frame
import proofs.«109219_j5196910428211_2_alg».proof.Proof.Spec
import proofs.«109219_j5196910428211_2_alg».proof.Proof.Reshape
import proofs.«109219_j5196910428211_2_alg».proof.Proof.Adapter
import proofs.«109219_j5196910428211_2_alg».proof.Proof.Rows
import Idealize.ShloMosaic.Lib.StableHlo.Run

set_option maxRecDepth 16384

noncomputable section

namespace Cert.KernelIdeal.Fold

open Cert.KernelIdeal Cert.KernelIdeal.Gen Cert.KernelIdeal.Facts₀
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- Entering the second region, the matrix of rows is x reshaped. -/
theorem rows_entry (c : Dev nD) :
    (V2 m ρ c main_v1 : S8192x4096.Idx → EReal)
      = shapeCast S8192x4096 (m ((c : Thread nD τ).loc main_arg0)) Facts₀.shapeCasts_S4x2048x4096_S8192x4096 := by
  show StableHlo.after hostOps1 (W1 m ρ c) (Proc.devRef .tc main_v1) = _
  after_results
  rw [W1_of_ne m ρ c main_arg0 (by decide)]
  rfl

/-- Entering the second region, the bias row is the bias reshaped. -/
theorem bias_entry (c : Dev nD) :
    (V2 m ρ c main_v2 : S1x4096.Idx → EReal)
      = shapeCast S1x4096 (m ((c : Thread nD τ).loc main_arg5)) Facts₀.shapeCasts_S4096_S1x4096 := by
  show StableHlo.after hostOps1 (W1 m ρ c) (Proc.devRef .tc main_v2) = _
  after_results
  rw [W1_of_ne m ρ c main_arg5 (by decide)]
  rfl

/-- Entering the second region, the weight array is what the first region left: the adapted weight. -/
theorem weight_entry (c : Dev nD) :
    (V2 m ρ c main_v0 : S4096x4096.Idx → EReal)
      = Spec.adapted (m ((c : Thread nD τ).loc main_arg1)) (m ((c : Thread nD τ).loc main_arg2))
          (m ((c : Thread nD τ).loc main_arg3)) (m ((c : Thread nD τ).loc main_arg4)) := by
  show StableHlo.after hostOps1 (W1 m ρ c) (Proc.devRef .tc main_v0) = _
  after_results
  exact (W1_arr m ρ c 4).trans (Adapter.final (V0 m ρ) c)

/-- The result buffer after the run: the specified result of the six arguments. -/
theorem result_eq (c : Dev nD) :
    (W4 m ρ c (Proc.devRef .tc main_v4) : S4x2048x4096.Idx → EReal)
      = Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e3 : (W3 m ρ c (Proc.devRef .tc main_v3) : S8192x4096.Idx → EReal)
      = Spec.rowsOut (V2 m ρ c main_v1) (V2 m ρ c main_v0) (V2 m ρ c main_v2) :=
    (W3_arr m ρ c 3).trans (Rows.final (V2 m ρ) c)
  show StableHlo.after hostOps2 (W3 m ρ c) (Proc.devRef .tc main_v4) = _
  after_results
  rw [e3, rows_entry m ρ c, bias_entry m ρ c, weight_entry m ρ c]
  exact Spec.view_rows_adapted _ _ _ _ _ _ _ _ _

end Cert.KernelIdeal.Fold

end
-- ==== Proof.RefVal.lean ====
/-
  The reference computes the specified result.

  Its seven operations, read at an index: two products give (∑ₗ C(o, l) · U(l, k)) and then ∑ₖ (…) · R(k, d); the sum
  with W gives the adapted weight; the contraction of x's last axis with the adapted weight's last axis gives
  ∑_d x(b, s, d) · adapted(o, d); the bias is broadcast along the first two axes and added.
-/
import proofs.«109219_j5196910428211_2_alg».proof.Proof.Gen.ReferenceIdeal.Read
import proofs.«109219_j5196910428211_2_alg».proof.Proof.Spec
import Idealize.ShloMosaic.Lib.ValueIdx

noncomputable section

open scoped BigOperators

namespace Cert.ReferenceIdeal.RefValue

open Cert.ReferenceIdeal Cert.ReferenceIdeal.Read
open Idealize.ShloMosaic Idealize.ShloMosaic.ValueIdx

/-- The reference's adapted weight at (o, d). -/
theorem adapted_eq (W : Spec.SW.Idx → EReal) (C : Spec.SC.Idx → EReal) (U : Spec.SU.Idx → EReal) (R : Spec.SR.Idx → EReal)
    (o d : Fin 4096) :
    val_main_v2 (F := Ideal) W C U R (ix2 o d) = Spec.adaptedAt W C U R o d := by
  rw [val_main_v2_apply, val_main_v1_apply]
  unfold Spec.adaptedAt
  refine congrArg (W (ix2 o d) + ·) (Finset.sum_congr rfl fun k _ => ?_)
  have e1 : lidx_main_v1 (ix2 o d) k = ix2 o k := funext fun a => Fin.ext (by
    match a with
    | ⟨0, _⟩ => rfl
    | ⟨1, _⟩ => rfl)
  have e2 : ridx_main_v1 (ix2 o d) k = ix2 k d := funext fun a => Fin.ext (by
    match a with
    | ⟨0, _⟩ => rfl
    | ⟨1, _⟩ => rfl)
  rw [e1, e2, val_main_v0_apply]
  refine congrArg (· * R (ix2 k d)) (Finset.sum_congr rfl fun l _ => ?_)
  have e3 : lidx_main_v0 (ix2 o k) l = ix2 o l := funext fun a => Fin.ext (by
    match a with
    | ⟨0, _⟩ => rfl
    | ⟨1, _⟩ => rfl)
  have e4 : ridx_main_v0 (ix2 o k) l = ix2 l k := funext fun a => Fin.ext (by
    match a with
    | ⟨0, _⟩ => rfl
    | ⟨1, _⟩ => rfl)
  rw [e3, e4]

/-- The reference's result is the specified result. -/
theorem result_eq (x : Spec.SX.Idx → EReal) (W : Spec.SW.Idx → EReal) (C : Spec.SC.Idx → EReal) (U : Spec.SU.Idx → EReal)
    (R : Spec.SR.Idx → EReal) (bias : Spec.SB.Idx → EReal) :
    val_main_v6 (F := Ideal) x W C U R bias = Spec.result x W C U R bias := by
  funext i
  obtain ⟨b, s, o, rfl⟩ : ∃ (b : Fin 4) (s : Fin 2048) (o : Fin 4096), i = ix3 b s o := ⟨i 0, i 1, i 2, eq_ix3 i⟩
  rw [val_main_v6_apply, val_main_v3_apply, val_main_v5_apply, val_main_v4_apply]
  have eb : idx_main_v4 (idx_main_v5 (ix3 b s o)) = ix1 o := funext fun a => Fin.ext (by
    match a with
    | ⟨0, _⟩ => rfl)
  rw [eb]
  show (∑ k : Fin 4096, x (lidx_main_v3 (ix3 b s o) k) * val_main_v2 (F := Ideal) W C U R (ridx_main_v3 (ix3 b s o) k))
      + bias (ix1 o) = Spec.resultAt x W C U R bias b s o
  unfold Spec.resultAt
  refine congrArg (· + bias (ix1 o)) (Finset.sum_congr rfl fun d _ => ?_)
  have el : lidx_main_v3 (ix3 b s o) d = ix3 b s d := funext fun a => Fin.ext (by
    match a with
    | ⟨0, _⟩ => rfl
    | ⟨1, _⟩ => rfl
    | ⟨2, _⟩ => rfl)
  have er : ridx_main_v3 (ix3 b s o) d = ix2 o d := funext fun a => Fin.ext (by
    match a with
    | ⟨0, _⟩ => rfl
    | ⟨1, _⟩ => rfl)
  rw [el, er, adapted_eq W C U R o d]

end Cert.ReferenceIdeal.RefValue

end
-- ==== Proof.lean ====
/-
  The certificate: x · (W + C·U·R)ᵀ + bias, computed by two kernel regions, against the jnp reference.

  The kernel first materializes the adapted weight W + (C·U)·R block of rows by block of rows, then multiplies blocks of
  rows of x (viewed as 8192 rows) by its transpose and adds the bias; the reference forms (C·U)·R, adds W, contracts x
  with it and adds the broadcast bias.  On the extended reals a change of float format is the identity and every sum is
  exact, and the two programs compute literally the same expression at every index (b, s, o):
  (∑_d x(b, s, d) · (W(o, d) + ∑ₖ (∑ₗ C(o, l) · U(l, k)) · R(k, d))) + bias(o) — no algebraic law beyond re-indexing is
  needed, so the finiteness of the inputs is never used.  The idealization rewrote nothing, so the kernel's idealized
  form is the kernel's own text read on the extended reals.
-/
import proofs.«109219_j5196910428211_2_alg».proof.Defs
import proofs.«109219_j5196910428211_2_alg».proof.Proof.Gen.Kernel
import proofs.«109219_j5196910428211_2_alg».proof.Proof.Gen.Kernel.Skeleton
import proofs.«109219_j5196910428211_2_alg».proof.Proof.Gen.Kernel.Launch
import proofs.«109219_j5196910428211_2_alg».proof.Proof.Gen.Kernel.Points
import proofs.«109219_j5196910428211_2_alg».proof.Proof.Gen.Kernel.Frame
import proofs.«109219_j5196910428211_2_alg».proof.Proof.Gen.KernelIdeal
import proofs.«109219_j5196910428211_2_alg».proof.Proof.Gen.KernelIdeal.Skeleton
import proofs.«109219_j5196910428211_2_alg».proof.Proof.Gen.KernelIdeal.Launch
import proofs.«109219_j5196910428211_2_alg».proof.Proof.Gen.KernelIdeal.Points
import proofs.«109219_j5196910428211_2_alg».proof.Proof.Gen.KernelIdeal.Frame
import proofs.«109219_j5196910428211_2_alg».proof.Proof.Gen.ReferenceIdeal
import proofs.«109219_j5196910428211_2_alg».proof.Proof.Gen.ReferenceIdeal.Run
import proofs.«109219_j5196910428211_2_alg».proof.Proof.Gen.ReferenceIdeal.Read
import proofs.«109219_j5196910428211_2_alg».proof.Proof.Gen.Pre_finite_inputs
import proofs.«109219_j5196910428211_2_alg».proof.Proof.Spec
import proofs.«109219_j5196910428211_2_alg».proof.Proof.KRun
import proofs.«109219_j5196910428211_2_alg».proof.Proof.Fold
import proofs.«109219_j5196910428211_2_alg».proof.Proof.RefVal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealized form. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specified result of the arguments they agree on. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_eq m ρ c), (h c).2⟩)
      (Cert.KernelIdeal.KRun.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v6_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
